-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S256x4096 .f32) (main_arg2 : FVec F S4096x256 .f32) (main_arg3 : FVec F S256 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S4x2048x4096 : Shape := ⟨3, ![4, 2048, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S8192x4096 : Shape := ⟨2, ![8192, 4096]⟩
abbrev S256x1 : Shape := ⟨2, ![256, 1]⟩
abbrev S_ : Shape := ⟨0, ![]⟩
abbrev S4096x1 : Shape := ⟨2, ![4096, 1]⟩
abbrev S256x256 : Shape := ⟨2, ![256, 256]⟩

abbrev nBuf : Space → Nat
  | .hbm => 21
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S256x4096, .f32⟩
  | .hbm, ⟨2, _⟩ => ⟨S4096x256, .f32⟩
  | .hbm, ⟨3, _⟩ => ⟨S256, .f32⟩
  | .hbm, ⟨4, _⟩ => ⟨S4096, .f32⟩
  | .hbm, ⟨5, _⟩ => ⟨S8192x4096, .f32⟩
  | .hbm, ⟨6, _⟩ => ⟨S256x1, .f32⟩
  | .hbm, ⟨7, _⟩ => ⟨S256x4096, .f32⟩
  | .hbm, ⟨8, _⟩ => ⟨S256x4096, .f32⟩
  | .hbm, ⟨9, _⟩ => ⟨S4096x256, .f32⟩
  | .hbm, ⟨10, _⟩ => ⟨S4096x256, .bf16⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S256x4096, .f32⟩
  | .hbm, ⟨18, _⟩ => ⟨S256x4096, .bf16⟩
  | .hbm, ⟨19, _⟩ => ⟨S8192x4096, .f32⟩
  | .hbm, ⟨20, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  transposes_S256x4096_S4096x256_1_0 : S256x4096.Transposes [1, 0] S4096x256
  bitsLt_bf16_f32 : FTy.bits .bf16 < FTy.bits .f32
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S8192x4096_S4x2048x4096 : S8192x4096.ShapeCasts S4x2048x4096
  dot_S256x4096_S4096x256_S256x256_1_0_0_1_n_n_wf : DotDims.WF S256x4096 S4096x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S256x4096.size a
  hwx0_2 : ∀ i : grid0.Coords, EltTy.bits .bf16 = 32 ∨ (Rect.block (s := S256x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S256x1 : Shape := ⟨2, ![256, 1]⟩
abbrev S4096x4096 : Shape := ⟨2, ![4096, 4096]⟩
abbrev S4096x1 : Shape := ⟨2, ![4096, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x4096, .f32⟩
  | .hbm, ⟨2, _⟩ => ⟨S4096x256, .f32⟩
  | .hbm, ⟨3, _⟩ => ⟨S256, .f32⟩
  | .hbm, ⟨4, _⟩ => ⟨S4096, .f32⟩
  | .hbm, ⟨5, _⟩ => ⟨S256x1, .f32⟩
  | .hbm, ⟨6, _⟩ => ⟨S256x4096, .f32⟩
  | .hbm, ⟨7, _⟩ => ⟨S256x4096, .f32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4x2048x4096 : S_.BroadcastsInDim S4x2048x4096 (![] : Fin 0 → Fin S4x2048x4096.rank)
  dot_S4096x256_S256x4096_S4096x4096_1_0_0_1_n_n_wf : DotDims.WF S4096x256 S256x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelHost.lean ====
/-
  The three arrays the kernel's region stages, as the host lines before it leave them, read at an index.

  Before the region the program flattens x to rows (row b·2048 + s of the flat array is row (b, s) of x), forms the
  transposed scaled first factor  AT[k, r] = A[r, k] · d_A[r]  and the transposed scaled second factor
  BT[r, o] = B[o, r] · (d_B[o] · c),  c the literal 1/8. The two casts to the narrow format are the identity on
  extended reals.
-/
import proofs.«151973_j28690381537981_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-! ## Columns broadcast along rows, and the broadcast scalar, at an index -/

/-- A length-256 vector made a column and repeated along 4096 columns reads its row's entry. -/
theorem col256_apply {α : Type} (d : S256.Idx → α) (r : Fin 256) (k : Fin 4096) :
    broadcastInDim S256x4096 ![0, 1] bcast_S256x1_S256x4096_0_1 (broadcastInDim S256x1 ![0] bcast_S256_S256x1_0 d) (ix2 r k)
      = d (ix1 r) :=
  (broadcastInDim_apply _ bcast_S256x1_S256x4096_0_1 _ (ix2 r k) (ix2 r (0 : Fin 1)) (fun a => match a with
    | ⟨0, _⟩ => by show r.val = if (256 : Nat) = 1 then 0 else r.val; rw [if_neg (by decide)]
    | ⟨1, _⟩ => by show 0 = if (1 : Nat) = 1 then 0 else k.val; rw [if_pos rfl])).trans
  (broadcastInDim_apply _ bcast_S256_S256x1_0 d (ix2 r (0 : Fin 1)) (ix1 r) (fun a => match a with
    | ⟨0, _⟩ => by show r.val = if (256 : Nat) = 1 then 0 else r.val; rw [if_neg (by decide)]))

/-- A length-4096 vector made a column and repeated along 256 columns reads its row's entry. -/
theorem col4096_apply {α : Type} (d : S4096.Idx → α) (o : Fin 4096) (r : Fin 256) :
    broadcastInDim S4096x256 ![0, 1] bcast_S4096x1_S4096x256_0_1 (broadcastInDim S4096x1 ![0] bcast_S4096_S4096x1_0 d) (ix2 o r)
      = d (ix1 o) :=
  (broadcastInDim_apply _ bcast_S4096x1_S4096x256_0_1 _ (ix2 o r) (ix2 o (0 : Fin 1)) (fun a => match a with
    | ⟨0, _⟩ => by show o.val = if (4096 : Nat) = 1 then 0 else o.val; rw [if_neg (by decide)]
    | ⟨1, _⟩ => by show 0 = if (1 : Nat) = 1 then 0 else r.val; rw [if_pos rfl])).trans
  (broadcastInDim_apply _ bcast_S4096_S4096x1_0 d (ix2 o (0 : Fin 1)) (ix1 o) (fun a => match a with
    | ⟨0, _⟩ => by show o.val = if (4096 : Nat) = 1 then 0 else o.val; rw [if_neg (by decide)]))

/-- A scalar repeated along 4096 entries reads the scalar. -/
theorem splat4096_apply {α : Type} (y : S_.Idx → α) (o : Fin 4096) :
    broadcastInDim S4096 ![] bcast_S_S4096 y (ix1 o) = y ix0 :=
  broadcastInDim_apply _ bcast_S_S4096 y (ix1 o) ix0 (fun a => a.elim0)

variable (m : (ℓ : Loc nD τ sig) → Buf (Elt Ideal) ℓ)

/-! ## The five argument arrays as launched, as functions into the extended reals -/

/-- x, of shape 4 × 2048 × 4096. -/
abbrev argX (c : Dev nD) : S4x2048x4096.Idx → EReal := m ((c : Thread nD τ).loc main_arg0)
/-- The first factor A, 256 × 4096. -/
abbrev argA (c : Dev nD) : S256x4096.Idx → EReal := m ((c : Thread nD τ).loc main_arg1)
/-- The second factor B, 4096 × 256. -/
abbrev argB (c : Dev nD) : S4096x256.Idx → EReal := m ((c : Thread nD τ).loc main_arg2)
/-- The first scaling vector d_A, of length 256. -/
abbrev argDA (c : Dev nD) : S256.Idx → EReal := m ((c : Thread nD τ).loc main_arg3)
/-- The second scaling vector d_B, of length 4096. -/
abbrev argDB (c : Dev nD) : S4096.Idx → EReal := m ((c : Thread nD τ).loc main_arg4)

/-! ## The staged arrays as terms of the arguments -/

/-- The flat copy of x. -/
theorem rows_eq (c : Dev nD) : @Eq (S8192x4096.Idx → EReal) (V m c main_v0)
    (shapeCast S8192x4096 (argX m c) shapeCasts_S4x2048x4096_S8192x4096) := by
  show StableHlo.after hostOps0 (fun b => m (c, b)) (Proc.devRef .tc main_v0) = _
  after_results
  rfl

/-- The transposed scaled first factor. -/
theorem first_eq (c : Dev nD) : @Eq (FVec Ideal S4096x256 .bf16) (V m c main_v5)
    (truncf .bf16 (transpose S4096x256 [1, 0]
        (mulf (argA m c)
          (broadcastInDim S256x4096 ![0, 1] bcast_S256x1_S256x4096_0_1
            (broadcastInDim S256x1 ![0] bcast_S256_S256x1_0 (argDA m c))))
        transposes_S256x4096_S4096x256_1_0) bitsLt_bf16_f32) := by
  show StableHlo.after hostOps0 (fun b => m (c, b)) (Proc.devRef .tc main_v5) = _
  after_results

/-- The transposed scaled second factor. -/
theorem second_eq (c : Dev nD) : @Eq (FVec Ideal S256x4096 .bf16) (V m c main_v12)
    (truncf .bf16 (transpose S256x4096 [1, 0]
        (mulf (argB m c)
          (broadcastInDim S4096x256 ![0, 1] bcast_S4096x1_S4096x256_0_1
            (broadcastInDim S4096x1 ![0] bcast_S4096_S4096x1_0
              (mulf (argDB m c)
                (broadcastInDim S4096 ![] bcast_S_S4096 (constant (F := Ideal) S_ .f32 0x3E000000#32))))))
        transposes_S4096x256_S256x4096_1_0) bitsLt_bf16_f32) := by
  show StableHlo.after hostOps0 (fun b => m (c, b)) (Proc.devRef .tc main_v12) = _
  after_results

/-! ## The staged arrays at an index -/

/-- Row b·2048 + s of the flat copy is row (b, s) of x. -/
theorem rows_apply (c : Dev nD) (b : Fin 4) (s : Fin 2048) (k : Fin 4096) (h : b.val * 2048 + s.val < 8192) :
    (V m c main_v0 : S8192x4096.Idx → EReal) (ix2 (⟨b.val * 2048 + s.val, h⟩ : Fin 8192) k)
      = argX m c (ix3 b s k) := by
  rw [rows_eq]
  exact shapeCast_apply _ shapeCasts_S4x2048x4096_S8192x4096 (ix2 (⟨b.val * 2048 + s.val, h⟩ : Fin 8192) k) (ix3 b s k)
    (by rw [Shape.rowMajor_val_three, Shape.rowMajor_val_two]; rfl)

/-- AT[k, r] = A[r, k] · d_A[r]. -/
theorem first_apply (c : Dev nD) (k : Fin 4096) (r : Fin 256) :
    (V m c main_v5 : S4096x256.Idx → EReal) (ix2 k r)
      = argA m c (ix2 r k) * argDA m c (ix1 r) := by
  rw [first_eq]
  rw [truncf_apply]
  refine (transpose_apply [1, 0] _ transposes_S256x4096_S4096x256_1_0 (ix2 k r) (ix2 r k)
    (fun b => match b with | ⟨0, _⟩ => rfl | ⟨1, _⟩ => rfl)).trans ?_
  exact congrArg (argA m c (ix2 r k) * ·) (col256_apply (argDA m c) r k)

/-- BT[r, o] = B[o, r] · (d_B[o] · c). -/
theorem second_apply (c : Dev nD) (r : Fin 256) (o : Fin 4096) :
    (V m c main_v12 : S256x4096.Idx → EReal) (ix2 r o)
      = argB m c (ix2 o r) * (argDB m c (ix1 o) * Ideal.ofBits .f32 0x3E000000#32) := by
  rw [second_eq]
  rw [truncf_apply]
  refine (transpose_apply [1, 0] _ transposes_S4096x256_S256x4096_1_0 (ix2 r o) (ix2 o r)
    (fun b => match b with | ⟨0, _⟩ => rfl | ⟨1, _⟩ => rfl)).trans ?_
  refine congrArg (argB m c (ix2 o r) * ·) ?_
  refine (col4096_apply (mulf (argDB m c) (broadcastInDim S4096 ![] bcast_S_S4096 (constant (F := Ideal) S_ .f32 0x3E000000#32))) o r).trans ?_
  exact congrArg (argDB m c (ix1 o) * ·) (splat4096_apply (constant (F := Ideal) S_ .f32 0x3E000000#32) o)

end Cert.KernelIdeal.HostSide

end
-- ==== Proof.KernelBlock.lean ====
/-
  What the kernel body computes on one block, at an index.

  The body takes a 256-row block X of the flat x, the whole transposed first factor AT (4096 × 256) and the whole
  transposed second factor BT (256 × 4096), and stores  (X · AT) · BT.  Both products are matrix products into a zero
  accumulator, so over the extended reals entry (p, q) of the result is
      Σ_r (Σ_k X[p, k] · AT[k, r]) · BT[r, q];
  the casts between the two float formats and the shape casts to the same shape are the identity.
-/
import proofs.«151973_j28690381537981_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The two products' operand indices, coordinate by coordinate -/

theorem inner_lhs0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem inner_lhs1 (i : S256x256.Idx) (q : dot_S256x4096_S4096x256_S256x256_1_0_0_1_n_n.contr.Idx) : (dot_S256x4096_S4096x256_S256x256_1_0_0_1_n_n.lhsIdx i q 1).val = (q ⟨0, by decide⟩).val :=
  dot_S256x4096_S4096x256_S256x256_1_0_0_1_n_n.lhsIdx_val_of_single rfl i q
theorem inner_rhs0 (i : S256x256.Idx) (q : dot_S256x4096_S4096x256_S256x256_1_0_0_1_n_n.contr.Idx) : (dot_S256x4096_S4096x256_S256x256_1_0_0_1_n_n.rhsIdx i q 0).val = (q ⟨0, by decide⟩).val :=
  dot_S256x4096_S4096x256_S256x256_1_0_0_1_n_n.rhsIdx_val_of_single rfl i q
theorem inner_rhs1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

theorem outer_lhs0 (i : S256x4096.Idx) (q : dot_S256x256_S256x4096_S256x4096_1_0_0_1_n_n.contr.Idx) : (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem outer_lhs1 (i : S256x4096.Idx) (q : dot_S256x256_S256x4096_S256x4096_1_0_0_1_n_n.contr.Idx) : (dot_S256x256_S256x4096_S256x4096_1_0_0_1_n_n.lhsIdx i q 1).val = (q ⟨0, by decide⟩).val :=
  dot_S256x256_S256x4096_S256x4096_1_0_0_1_n_n.lhsIdx_val_of_single rfl i q
theorem outer_rhs0 (i : S256x4096.Idx) (q : dot_S256x256_S256x4096_S256x4096_1_0_0_1_n_n.contr.Idx) : (dot_S256x256_S256x4096_S256x4096_1_0_0_1_n_n.rhsIdx i q 0).val = (q ⟨0, by decide⟩).val :=
  dot_S256x256_S256x4096_S256x4096_1_0_0_1_n_n.rhsIdx_val_of_single rfl i q
theorem outer_rhs1 (i : S256x4096.Idx) (q : dot_S256x256_S256x4096_S256x4096_1_0_0_1_n_n.contr.Idx) : (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-! ## Each product at an index -/

/-- The first product into zero: entry (p, r) is the sum over the 4096 contracted positions. -/
theorem inner_apply (l : FVec Ideal S256x4096 .bf16) (w : FVec Ideal S4096x256 .bf16) (p : Fin 256) (r : Fin 256) :
    matmul dot_S256x4096_S4096x256_S256x256_1_0_0_1_n_n none l w (constant (F := Ideal) S256x256 .f32 0x00000000#32) (ix2 p r)
      = ∑ k : Fin 4096, l (ix2 p k) * w (ix2 k r) := by
  refine (Ideal.matmul_constant_zero_apply dot_S256x4096_S4096x256_S256x256_1_0_0_1_n_n none l w (ix2 p r)).trans ?_
  rw [← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p r) ((contrEquiv1 dot_S256x4096_S4096x256_S256x256_1_0_0_1_n_n 4096 rfl rfl).symm k) = ix2 p k := funext fun a => Fin.ext (by
    match a with
    | ⟨0, _⟩ => exact inner_lhs0 _ _
    | ⟨1, _⟩ => exact (inner_lhs1 _ _).trans hk)
  have er : dot_S256x4096_S4096x256_S256x256_1_0_0_1_n_n.rhsIdx (ix2 p r) ((contrEquiv1 dot_S256x4096_S4096x256_S256x256_1_0_0_1_n_n 4096 rfl rfl).symm k) = ix2 k r := funext fun a => Fin.ext (by
    match a with
    | ⟨0, _⟩ => exact (inner_rhs0 _ _).trans hk
    | ⟨1, _⟩ => exact inner_rhs1 _ _)
  rw [el, er]

/-- The second product into zero: entry (p, q) is the sum over the 256 contracted positions. -/
theorem outer_apply (l : FVec Ideal S256x256 .bf16) (w : FVec Ideal S256x4096 .bf16) (p : Fin 256) (q : Fin 4096) :
    matmul dot_S256x256_S256x4096_S256x4096_1_0_0_1_n_n none l w (constant (F := Ideal) S256x4096 .f32 0x00000000#32) (ix2 p q)
      = ∑ r : Fin 256, l (ix2 p r) * w (ix2 r q) := by
  refine (Ideal.matmul_constant_zero_apply dot_S256x256_S256x4096_S256x4096_1_0_0_1_n_n none l w (ix2 p q)).trans ?_
  rw [← Equiv.sum_comp (contrEquiv1 dot_S256x256_S256x4096_S256x4096_1_0_0_1_n_n 256 rfl rfl).symm]
  refine Finset.sum_congr rfl fun r _ => ?_
  have hr := contrEquiv1_symm_val dot_S256x256_S256x4096_S256x4096_1_0_0_1_n_n 256 rfl rfl r
  have el : dot_S256x256_S256x4096_S256x4096_1_0_0_1_n_n.lhsIdx (ix2 p q) ((contrEquiv1 dot_S256x256_S256x4096_S256x4096_1_0_0_1_n_n 256 rfl rfl).symm r) = ix2 p r := funext fun a => Fin.ext (by
    match a with
    | ⟨0, _⟩ => exact outer_lhs0 _ _
    | ⟨1, _⟩ => exact (outer_lhs1 _ _).trans hr)
  have er : dot_S256x256_S256x4096_S256x4096_1_0_0_1_n_n.rhsIdx (ix2 p q) ((contrEquiv1 dot_S256x256_S256x4096_S256x4096_1_0_0_1_n_n 256 rfl rfl).symm r) = ix2 r q := funext fun a => Fin.ext (by
    match a with
    | ⟨0, _⟩ => exact (outer_rhs0 _ _).trans hr
    | ⟨1, _⟩ => exact outer_rhs1 _ _)
  rw [el, er]

/-! ## The stored block at an index -/

/-- Entry (p, q) of what the body stores: the double sum  Σ_r (Σ_k X[p, k] · AT[k, r]) · BT[r, q]. -/
theorem stored_apply (x0 : Vec Ideal S256x4096 .f32) (x1 : Vec Ideal S4096x256 .bf16) (x2 : Vec Ideal S256x4096 .bf16)
    (p : Fin 256) (q : Fin 4096) :
    k0_pay1 (F := Ideal) x0 x1 x2 (ix2 p q)
      = ∑ r : Fin 256, (∑ k : Fin 4096, (x0 (ix2 p k) : EReal) * x1 (ix2 k r)) * x2 (ix2 r q) := by
  unfold k0_pay1
  simp only [shapeCast_self]
  refine (outer_apply _ _ p q).trans ?_
  refine Finset.sum_congr rfl fun r _ => ?_
  exact congrArg (· * (x2 (ix2 r q) : EReal)) (inner_apply _ _ p r)

end Cert.KernelIdeal.Block

end
-- ==== Proof.KernelArray.lean ====
/-
  From blocks to the whole flat result.

  The grid has 32 points. Point t stages rows 256·t … 256·t + 255 of the flat x (block index (t, 0)), the whole transposed
  first factor and the whole transposed second factor (block index (0, 0) at every point), and writes back rows
  256·t … 256·t + 255 of the flat result. An entry of the stored block depends on the flat x only through its own row,
  so what point t writes back is block t of ONE function of the three staged arrays:
      out[i, o] = Σ_r (Σ_k X[i, k] · AT[k, r]) · BT[r, o].
  The 32 row blocks tile the 8192 rows (row i lies in block i / 256), so the result array ends holding that function.
-/
import proofs.«151973_j28690381537981_2_alg».proof.Proof.Gen.KernelIdeal.Frame
import proofs.«151973_j28690381537981_2_alg».proof.Proof.KernelBlock
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The flat result as one function of the three staged arrays. -/
def flatOut (X : S8192x4096.Idx → EReal) (AT : S4096x256.Idx → EReal) (BT : S256x4096.Idx → EReal) : S8192x4096.Idx → EReal :=
  fun j => ∑ r : Fin 256, (∑ k : Fin 4096, X (ix2 (j 0) k) * AT (ix2 k r)) * BT (ix2 r (j 1))

theorem zero_offsets : (![0, 0] : Fin 2 → Nat) = fun _ => 0 := funext fun a => by fin_cases a <;> rfl

/-- The four index maps over the grid: the row-blocked windows are at block (t, 0), the two factors at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ)

/-! ## The input blocks -/

/-- Row p of point t's block of the flat x is row 256·t + p of the flat x. -/
theorem rows_block (c : Dev nD) (t : Fin cfg0.N) (p : Fin 256) (k : Fin 4096) (h : t.val * 256 + p.val < 8192) :
    (iblk m c 0 t : Vec Ideal S256x4096 .f32) (ix2 p k)
      = (V m c main_v0 : S8192x4096.Idx → EReal) (ix2 (⟨t.val * 256 + p.val, h⟩ : Fin 8192) k) := by
  obtain ⟨e0, e1, -⟩ := block_indices t
  unfold iblk
  rw [View.read_apply]
  show V m c main_v0 _ = V m c main_v0 _
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 4096 + 1 * k.val = k.val; rw [e1]; omega

/-- Every point's block of the transposed first factor is the whole array. -/
theorem first_block (c : Dev nD) (t : Fin cfg0.N) (y : S4096x256.Idx) :
    (iblk m c 1 t : Vec Ideal S4096x256 .bf16) y = (V m c main_v5 : S4096x256.Idx → EReal) y := by
  obtain ⟨-, -, e0, e1, -⟩ := block_indices t
  unfold iblk
  rw [View.read_apply]
  show V m c main_v5 _ = V m c main_v5 _
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 256 + 1 * (y 1).val = (y 1).val; rw [e1]; omega

/-- Every point's block of the transposed second factor is the whole array. -/
theorem second_block (c : Dev nD) (t : Fin cfg0.N) (y : S256x4096.Idx) :
    (iblk m c 2 t : Vec Ideal S256x4096 .bf16) y = (V m c main_v12 : S256x4096.Idx → EReal) y := by
  obtain ⟨-, -, -, -, e0, e1, -⟩ := block_indices t
  unfold iblk
  rw [View.read_apply]
  show V m c main_v12 _ = V m c main_v12 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 4096 + 1 * (y 1).val = (y 1).val; rw [e1]; omega

/-! ## What a point stores, as rows of the flat result -/

/-- Entry j of the block point t stores is entry (256·t + j₀, j₁) of the flat result. -/
theorem stored_block (c : Dev nD) (t : Fin cfg0.N) (hr : ∀ p : Fin 256, t.val * 256 + p.val < 8192) (j : S256x4096.Idx) :
    k0_pay1 (F := Ideal) (iblk m c 0 t) (iblk m c 1 t) (iblk m c 2 t) j
      = flatOut (V m c main_v0) (V m c main_v5) (V m c main_v12) (ix2 (⟨t.val * 256 + (j 0).val, hr (j 0)⟩ : Fin 8192) (j 1)) := by
  obtain ⟨p, q, rfl⟩ : ∃ (p : Fin 256) (q : Fin 4096), j = ix2 p q := ⟨j 0, j 1, eq_ix2 j⟩
  refine (Block.stored_apply (iblk m c 0 t) (iblk m c 1 t) (iblk m c 2 t) p q).trans ?_
  unfold flatOut
  refine Finset.sum_congr rfl fun r _ => ?_
  refine congrArg₂ (· * ·) (Finset.sum_congr rfl fun k _ => ?_) (second_block m c t (ix2 r q))
  exact congrArg₂ (· * ·) (rows_block m c t p k (hr p)) (first_block m c t (ix2 k r))

/-! ## What a point writes back, and the cover -/

/-- Point t writes back block t of the flat result. -/
theorem flushed_eq (c : Dev nD) (t : Fin cfg0.N) :
    (dats m 0 c).flushed 3 t
      = ((cfg0.win 3).blk t).view.read (Elt Ideal) (flatOut (V m c main_v0) (V m c main_v5) (V m c main_v12)) := by
  show (cfg0.win 3).cut (grid0.coords t) ((dats m 0 c).after 3 t) = _
  rw [after0_3]
  unfold out0_3
  rw [View.canon_unit_zero zero_offsets]
  simp only [View.ld_unit_zero (S := S256x4096) zero_offsets, View.ld_unit_zero (S := S4096x256) zero_offsets]
  obtain ⟨-, -, -, -, -, -, e0, e1⟩ := block_indices t
  have ht : t.val < 32 := lt_of_lt_of_eq t.isLt N_0
  have hr : ∀ p : Fin 256, t.val * 256 + p.val < 8192 := fun p => by have := p.isLt; omega
  funext j
  rw [View.read_apply]
  show k0_pay1 (F := Ideal) (iblk m c 0 t) (iblk m c 1 t) (iblk m c 2 t) j = _
  refine (stored_block m c t hr j).trans ?_
  refine congrArg (flatOut (V m c main_v0) (V m c main_v5) (V m c main_v12)) ?_
  funext a
  apply Fin.ext
  match a with
  | ⟨0, _⟩ => show t.val * 256 + (j 0).val = win0_3.index t (0 : Fin 2) * 256 + 1 * (j 0).val; rw [e0]; omega
  | ⟨1, _⟩ => show (j 1).val = win0_3.index t (1 : Fin 2) * 4096 + 1 * (j 1).val; rw [e1]; omega

/-- An index of the flat result is in point t's block iff each coordinate is in the block's range on its axis. -/
theorem mem_block (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v13).slice (win0_3.rect t)).set ↔ _
  rw [View.set_slice_whole, Rect.mem_set_unit]
  exact Iff.rfl

/-- Every index of the flat result lies in the block of the point its row selects. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨-, -, -, -, -, -, e0, e1⟩ := block_indices ⟨(i 0).val / 256, hlt⟩
  refine ⟨⟨(i 0).val / 256, hlt⟩, flush0_3 _, ?_⟩
  rw [mem_block]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, hlt⟩ (1 : Fin 2) * 4096 ≤ (i 1).val
      ∧ (i 1).val < win0_3.index ⟨(i 0).val / 256, hlt⟩ (1 : Fin 2) * 4096 + 4096
    rw [e1]
    omega

/-- The result array after the region is the flat result. -/
theorem final (c : Dev nD) :
    (dats m 0 c).arrAt 3 cfg0.N = flatOut (V m c main_v0) (V m c main_v5) (V m c main_v12) :=
  (dats m 0 c).arrAt_eq_of_cover 3 _ (fun t _ => flushed_eq m c t) covered

end Cert.KernelIdeal.Whole

end
-- ==== Proof.KernelRun.lean ====
/-
  The kernel's result array after the whole program, and that result at an index.

  After the region the program reshapes the flat 8192 × 4096 result to 4 × 2048 × 4096: entry (b, s, o) of the result is
  entry (b·2048 + s, o) of the flat result. Composed with the staged arrays read at an index, entry (b, s, o) is
      Σ_r (Σ_k x[b, s, k] · (A[r, k] · d_A[r])) · (B[o, r] · (d_B[o] · c)),     c the literal 1/8.
-/
import proofs.«151973_j28690381537981_2_alg».proof.Proof.KernelHost
import proofs.«151973_j28690381537981_2_alg».proof.Proof.KernelArray
import Idealize.ShloMosaic.Lib.StableHlo.Run

noncomputable section

namespace Cert.KernelIdeal.Whole

open Cert.KernelIdeal Cert.KernelIdeal.Gen Cert.KernelIdeal.HostSide Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The kernel's result: the flat result of the three staged arrays, reshaped. -/
def kernelOut (c : Dev nD) : S4x2048x4096.Idx → EReal :=
  shapeCast S4x2048x4096 (flatOut (V m c main_v0) (V m c main_v5) (V m c main_v12)) shapeCasts_S8192x4096_S4x2048x4096

/-- The line after the region leaves the result buffer at `kernelOut`. -/
theorem tail_eq (c : Dev nD) :
    @Eq (S4x2048x4096.Idx → EReal) (Pipeline.afterTail₀ cfgs (dats m) 0 (V0 m) [hostOps1] c main_v14) (kernelOut m c) := by
  unfold Pipeline.afterTail₀ kernelOut
  refine Eq.trans (b := shapeCast S4x2048x4096
      (Pipeline.withArrays (cfgs 0).spec c (V0 m c) (fun w => (dats m 0 c).arrAt w (cfgs 0).N) (Proc.devRef .tc main_v13))
      shapeCasts_S8192x4096_S4x2048x4096) ?_ ?_
  · show StableHlo.after hostOps1 _ (Proc.devRef .tc main_v14) = _
    after_results
    rfl
  · exact congrArg (fun A : S8192x4096.Idx → EReal => shapeCast S4x2048x4096 A shapeCasts_S8192x4096_S4x2048x4096)
      ((Pipeline.withArrays_arr spec0 launch0.win.arr_inj c _ _ 3).trans (final m c))

/-- Entry (b, s, o) of the kernel's result, in the argument arrays. -/
theorem kernelOut_apply (c : Dev nD) (b : Fin 4) (s : Fin 2048) (o : Fin 4096) :
    kernelOut m c (ix3 b s o)
      = ∑ r : Fin 256, (∑ k : Fin 4096, argX m c (ix3 b s k) * (argA m c (ix2 r k) * argDA m c (ix1 r)))
          * (argB m c (ix2 o r) * (argDB m c (ix1 o) * Ideal.ofBits .f32 0x3E000000#32)) := by
  have h : b.val * 2048 + s.val < 8192 := by have := b.isLt; have := s.isLt; omega
  unfold kernelOut
  refine (shapeCast_apply _ shapeCasts_S8192x4096_S4x2048x4096 (ix3 b s o) (ix2 (⟨b.val * 2048 + s.val, h⟩ : Fin 8192) o)
    (by rw [Shape.rowMajor_val_two, Shape.rowMajor_val_three]; rfl)).trans ?_
  unfold flatOut
  refine Finset.sum_congr rfl fun r _ => ?_
  refine congrArg₂ (· * ·) (Finset.sum_congr rfl fun k _ => ?_) (second_apply m c r o)
  exact congrArg₂ (· * ·) (rows_apply m c b s k h) (first_apply m c k r)

/-- The run: every weakly fair execution ends with the result buffer at `kernelOut` and the arguments unchanged. -/
theorem run : θ_run defs (onTc (τ := τ) (main (F := Ideal))) ⟨m, fun _ => 0, ρ⟩ (fun r => ∀ c : Dev nD,
      r.2.mem ((c.tc : Thread nD τ).loc main_v14) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefValue.lean ====
/-
  The reference's result at an index.

  The reference forms the effective weight  W[o, i] = d_B[o] · Σ_r B[o, r] · (d_A[r] · A[r, i]),  contracts x with it over
  i and scales by the literal c = 1/8:
      ref[b, s, o] = (Σ_i x[b, s, i] · (d_B[o] · Σ_r B[o, r] · (d_A[r] · A[r, i]))) · c.
  This module reads that off the reference's stages, one operation at a time.
-/
import proofs.«151973_j28690381537981_2_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## The stages' operand indices, by coordinates -/

theorem lidx7 (b : Fin 4) (s : Fin 2048) (o k : Fin 4096) : lidx_main_v7 (ix3 b s o) k = ix3 b s k :=
  funext fun a => Fin.ext (by match a with | ⟨0, _⟩ => rfl | ⟨1, _⟩ => rfl | ⟨2, _⟩ => rfl)
theorem ridx7 (b : Fin 4) (s : Fin 2048) (o k : Fin 4096) : ridx_main_v7 (ix3 b s o) k = ix2 o k :=
  funext fun a => Fin.ext (by match a with | ⟨0, _⟩ => rfl | ⟨1, _⟩ => rfl)
theorem idx5 (o k : Fin 4096) : idx_main_v5 (ix2 o k) = ix2 o (0 : Fin 1) :=
  funext fun a => Fin.ext (by match a with | ⟨0, _⟩ => rfl | ⟨1, _⟩ => rfl)
theorem idx4 (o : Fin 4096) : idx_main_v4 (ix2 o (0 : Fin 1)) = ix1 o :=
  funext fun a => Fin.ext (by match a with | ⟨0, _⟩ => rfl)
theorem lidx3 (o k : Fin 4096) (r : Fin 256) : lidx_main_v3 (ix2 o k) r = ix2 o r :=
  funext fun a => Fin.ext (by match a with | ⟨0, _⟩ => rfl | ⟨1, _⟩ => rfl)
theorem ridx3 (o k : Fin 4096) (r : Fin 256) : ridx_main_v3 (ix2 o k) r = ix2 r k :=
  funext fun a => Fin.ext (by match a with | ⟨0, _⟩ => rfl | ⟨1, _⟩ => rfl)
theorem idx1 (r : Fin 256) (k : Fin 4096) : idx_main_v1 (ix2 r k) = ix2 r (0 : Fin 1) :=
  funext fun a => Fin.ext (by match a with | ⟨0, _⟩ => rfl | ⟨1, _⟩ => rfl)
theorem idx0 (r : Fin 256) : idx_main_v0 (ix2 r (0 : Fin 1)) = ix1 r :=
  funext fun a => Fin.ext (by match a with | ⟨0, _⟩ => rfl)

/-! ## The result at an index -/

/-- Entry (b, s, o) of the reference's result. -/
theorem result_apply (x0 : S4x2048x4096.Idx → EReal) (x1 : S256x4096.Idx → EReal) (x2 : S4096x256.Idx → EReal)
    (x3 : S256.Idx → EReal) (x4 : S4096.Idx → EReal) (b : Fin 4) (s : Fin 2048) (o : Fin 4096) :
    val_main_v9 (F := Ideal) x0 x1 x2 x3 x4 (ix3 b s o)
      = (∑ k : Fin 4096, x0 (ix3 b s k) * (x4 (ix1 o) * ∑ r : Fin 256, x2 (ix2 o r) * (x3 (ix1 r) * x1 (ix2 r k))))
          * Ideal.ofBits .f32 0x3E000000#32 := by
  rw [val_main_v9_apply, val_main_v7_apply, val_main_v8_apply, val_main_cst_apply]
  simp only [lidx7, ridx7, val_main_v6_apply, val_main_v5_apply, idx5, val_main_v4_apply, idx4, val_main_v3_apply, lidx3, ridx3,
    val_main_v2_apply, val_main_v1_apply, idx1, val_main_v0_apply, idx0, Ideal.mulf_def, Ideal.ofBits_def]

end Cert.ReferenceIdeal.RefValue

end
-- ==== Proof.Finite.lean ====
/-
  From the precondition to real numbers.

  The precondition says, array by array, that every entry x satisfies |x| < +∞ (the conjunction of five "all"
  reductions). Over the extended reals |x| = max x (−x), which is +∞ exactly at the two infinities, so an entry with
  |x| < +∞ is the coercion of a real number. This module reads that fact out of the printed predicate for each of the
  five argument arrays.
-/
import proofs.«151973_j28690381537981_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The scalar shape has exactly one index. -/
instance subsingleton_scalar_idx : Subsingleton S_.Idx := ⟨fun a b => funext fun d => d.elim0⟩

/-- An extended real whose absolute value is strictly below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every entry of every argument array is a real number. -/
theorem real_entries (a0 : FVec Ideal S4x2048x4096 .f32) (a1 : FVec Ideal S256x4096 .f32) (a2 : FVec Ideal S4096x256 .f32)
    (a3 : FVec Ideal S256 .f32) (a4 : FVec Ideal S4096 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_, fun i => ?_, fun i => ?_⟩
  · exact real_of_abs_lt_top _ (Host.reduce_andi_all _ _ _ _ _ e0 i)
  · exact real_of_abs_lt_top _ (Host.reduce_andi_all _ _ _ _ _ e1 i)
  · exact real_of_abs_lt_top _ (Host.reduce_andi_all _ _ _ _ _ e2 i)
  · exact real_of_abs_lt_top _ (Host.reduce_andi_all _ _ _ _ _ e3 i)
  · exact real_of_abs_lt_top _ (Host.reduce_andi_all _ _ _ _ _ e4 i)

end Cert.FiniteInputs

end
-- ==== Proof.Algebra.lean ====
/-
  The one algebraic law behind this certificate, over abstract finite index sets.

  A rank-R factorisation applied to a row x of length K can be evaluated in two orders:
    • contract x with the scaled first factor, then with the scaled second factor:
        Σ_r (Σ_k x_k · (a_{r,k} · α_r)) · (b_r · (β · c)),
    • or form the effective weight row  β · Σ_r b_r · (α_r · a_{r,k})  first, contract x with it, and scale by c:
        (Σ_k x_k · (β · Σ_r b_r · (α_r · a_{r,k}))) · c.
  Over the reals the two agree by distributivity and an exchange of the two finite sums. Over the extended reals
  distributivity fails at the infinities, so the law is stated for values that are real numbers (coercions of reals),
  and proved by pushing the coercion outside every sum and product.
-/
import Mathlib.Data.EReal.Basic
import Mathlib.Algebra.BigOperators.Ring.Finset
import Mathlib.Algebra.BigOperators.Group.Finset.Sigma
import Mathlib.Tactic.Ring

open scoped BigOperators

namespace Cert.LowRank

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two evaluation orders agree over the reals. -/
theorem chain_real {K R : Type*} [Fintype K] [Fintype R] (x : K → ℝ) (a : R → K → ℝ) (α b : R → ℝ) (β c : ℝ) :
    ∑ r, (∑ k, x k * (a r k * α r)) * (b r * (β * c)) = (∑ k, x k * (β * ∑ r, b r * (α r * a r k))) * c := by
  simp only [Finset.sum_mul, Finset.mul_sum]
  rw [Finset.sum_comm]
  exact Finset.sum_congr rfl fun k _ => Finset.sum_congr rfl fun r _ => by ring

/-- The two evaluation orders agree over the extended reals when every value is a real number. -/
theorem chain_ereal {K R : Type*} [Fintype K] [Fintype R] (x : K → ℝ) (a : R → K → ℝ) (α b : R → ℝ) (β c : ℝ) :
    ∑ r, (∑ k, (x k : EReal) * ((a r k : EReal) * (α r : EReal))) * ((b r : EReal) * ((β : EReal) * (c : EReal)))
      = (∑ k, (x k : EReal) * ((β : EReal) * ∑ r, (b r : EReal) * ((α r : EReal) * (a r k : EReal)))) * (c : EReal) := by
  have h := congrArg (fun t : ℝ => (t : EReal)) (chain_real x a α b β c)
  simpa only [coe_sum, EReal.coe_mul] using h

end Cert.LowRank
-- ==== Proof.Bridge.lean ====
/-
  The kernel's result is the reference's, under the precondition.

  Index by index the two sides are
      kernel:     Σ_r (Σ_k x_k · (A_{r,k} · d_A[r])) · (B_{o,r} · (d_B[o] · c)),
      reference:  (Σ_k x_k · (d_B[o] · Σ_r B_{o,r} · (d_A[r] · A_{r,k}))) · c,
  the same low-rank chain evaluated in two orders. They agree by distributivity and an exchange of the two sums, which
  hold on the extended reals only away from the infinities: this is where the precondition is used. Every entry of every
  argument is a real number, the literal c is the real 1/8, and the law is the one proved over the reals.
-/
import proofs.«151973_j28690381537981_2_alg».proof.Proof.KernelRun
import proofs.«151973_j28690381537981_2_alg».proof.Proof.RefValue
import proofs.«151973_j28690381537981_2_alg».proof.Proof.Finite
import proofs.«151973_j28690381537981_2_alg».proof.Proof.Algebra
import proofs.«151973_j28690381537981_2_alg».proof.Proof.Gen.Pre_finite_inputs

noncomputable section

namespace Cert.Bridge

open Idealize.ShloMosaic Idealize.ShloMosaic.TcCoe Idealize.SL.Sem Idealize.ShloMosaic.ValueIdx
open Cert.KernelIdeal Cert.KernelIdeal.HostSide Cert.KernelIdeal.Whole

/-- The scale literal is the real number 1/8. -/
theorem eighth : Ideal.ofBits .f32 0x3E000000#32 = (((1 / 8 : ℝ)) : EReal) := by
  simp [Ideal.ofBits, Ideal.ieee, -EReal.coe_mul]; norm_num

variable (m : (ℓ : Loc nD τ sig) → Buf (Elt Ideal) ℓ)

/-- Under the precondition the kernel's result array is the reference's last stage of the same arguments. -/
theorem kernel_eq_reference (c : Dev nD)
    (hpre : Cert.Pre_finite_inputs.fn (F := Ideal) (argX m c) (argA m c) (argB m c) (argDA m c) (argDB m c) = fun _ => 1#1) :
    kernelOut m c
      = Cert.ReferenceIdeal.Read.val_main_v9 (F := Ideal) (argX m c) (argA m c) (argB m c) (argDA m c) (argDB m c) := by
  obtain ⟨hX, hA, hB, hDA, hDB⟩ := Cert.FiniteInputs.real_entries _ _ _ _ _ hpre
  choose x hx using hX
  choose a ha using hA
  choose w hw using hB
  choose α hα using hDA
  choose β hβ using hDB
  funext i
  obtain ⟨b, s, o, rfl⟩ : ∃ (b : Fin 4) (s : Fin 2048) (o : Fin 4096), i = ix3 b s o := ⟨i 0, i 1, i 2, eq_ix3 i⟩
  rw [kernelOut_apply, Cert.ReferenceIdeal.RefValue.result_apply]
  simp only [hx, ha, hw, hα, hβ, eighth]
  exact Cert.LowRank.chain_ereal (fun k => x (ix3 b s k)) (fun r k => a (ix2 r k)) (fun r => α (ix1 r))
    (fun r => w (ix2 o r)) (β (ix1 o)) (1 / 8)

end Cert.Bridge

end
-- ==== Proof.lean ====
/-
  A low-rank adapter applied to a batch of rows, evaluated in two orders.

  With A (256 × 4096), B (4096 × 256), scaling vectors d_A (256) and d_B (4096) and the scale c = 1/8, both programs
  compute  out[b, s, o] = c · Σ_i x[b, s, i] · W[o, i]  for the effective weight
  W = diag(d_B) · B · diag(d_A) · A.  The reference builds W (a 4096 × 4096 matrix) and contracts x with it. The kernel
  never builds W: per block of 256 rows of the flattened x it multiplies by the transposed scaled first factor
  (4096 × 256), then by the transposed second factor with d_B and c folded in (256 × 4096).

  Over the extended reals the changes of float format are the identity and each matrix product is an exact finite sum, so
  index by index the two results are the two sides of one law of finite sums (Proof/Algebra.lean). That law needs
  distributivity, which fails at the infinities; the precondition (every input entry finite) is what makes every value a
  real number (Proof/Finite.lean). The kernel's side is read block by block and assembled over the 32 row blocks
  (Proof/KernelBlock.lean, Proof/KernelHost.lean, Proof/KernelArray.lean, Proof/KernelRun.lean); the reference's side is
  read stage by stage (Proof/RefValue.lean); Proof/Bridge.lean joins them.

  The idealized kernel is the kernel's own text read over the extended reals (no operation of it is replaced), so the
  idealization claim is the trivial one; the three frame claims are the programs' runs with the results forgotten.
-/
import proofs.«151973_j28690381537981_2_alg».proof.Defs
import proofs.«151973_j28690381537981_2_alg».proof.Proof.Gen.Kernel
import proofs.«151973_j28690381537981_2_alg».proof.Proof.Gen.Kernel.Skeleton
import proofs.«151973_j28690381537981_2_alg».proof.Proof.Gen.Kernel.Launch
import proofs.«151973_j28690381537981_2_alg».proof.Proof.Gen.Kernel.Points
import proofs.«151973_j28690381537981_2_alg».proof.Proof.Gen.Kernel.Frame
import proofs.«151973_j28690381537981_2_alg».proof.Proof.Gen.KernelIdeal
import proofs.«151973_j28690381537981_2_alg».proof.Proof.Gen.KernelIdeal.Skeleton
import proofs.«151973_j28690381537981_2_alg».proof.Proof.Gen.KernelIdeal.Launch
import proofs.«151973_j28690381537981_2_alg».proof.Proof.Gen.KernelIdeal.Points
import proofs.«151973_j28690381537981_2_alg».proof.Proof.Gen.KernelIdeal.Frame
import proofs.«151973_j28690381537981_2_alg».proof.Proof.Gen.ReferenceIdeal
import proofs.«151973_j28690381537981_2_alg».proof.Proof.Gen.Pre_finite_inputs
import proofs.«151973_j28690381537981_2_alg».proof.Proof.Gen.ReferenceIdeal.Run
import proofs.«151973_j28690381537981_2_alg».proof.Proof.Gen.ReferenceIdeal.Read
import proofs.«151973_j28690381537981_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the five arguments, both idealized programs end with the same result array: the
    reference's last stage of the arguments. The kernel's run ends there by the bridge, under the precondition; the
    reference's run ends there by definition of the stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v9 (F := Ideal) (Cert.KernelIdeal.HostSide.argX m c)
    (Cert.KernelIdeal.HostSide.argA m c) (Cert.KernelIdeal.HostSide.argB m c) (Cert.KernelIdeal.HostSide.argDA m c)
    (Cert.KernelIdeal.HostSide.argDB m c), ?_, ?_⟩
  · exact (θ_run Cert.KernelIdeal.defs _ _).mono
      (fun _ h c => ⟨(h c).1.trans (Cert.Bridge.kernel_eq_reference m c (hpre c)), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
